-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100 : Shape := ⟨1, ![100]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100 : S_.BroadcastsInDim S100 (![] : Fin 0 → Fin S100.rank)
  reducesTo_S100_S_d0 : S100.ReducesTo [0] S_

variable [Facts]

def fn {F : FTy → Type} [FloatOps F] (main_arg0 : FVec F S512x512 .f32) (main_arg1 : IVec S512 32) (main_arg2 : FVec F S100 .f32) (main_arg3 : FVec F S100 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100 .f32 := Host.absf main_arg2
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S512x512 : Shape := ⟨2, ![512, 512]⟩
abbrev S512 : Shape := ⟨1, ![512]⟩
abbrev S100 : Shape := ⟨1, ![100]⟩
abbrev S512x1 : Shape := ⟨2, ![512, 1]⟩
abbrev S1x512 : Shape := ⟨2, ![1, 512]⟩
abbrev S_ : Shape := ⟨0, ![]⟩
abbrev S1x1 : Shape := ⟨2, ![1, 1]⟩
abbrev S16x512 : Shape := ⟨2, ![16, 512]⟩
abbrev S16x1 : Shape := ⟨2, ![16, 1]⟩
abbrev S16x1x1 : Shape := ⟨3, ![16, 1, 1]⟩
abbrev S16x128 : Shape := ⟨2, ![16, 128]⟩
abbrev S16x512x1 : Shape := ⟨3, ![16, 512, 1]⟩
abbrev S16x1x128 : Shape := ⟨3, ![16, 1, 128]⟩
abbrev S16x512x128 : Shape := ⟨3, ![16, 512, 128]⟩
abbrev S16 : Shape := ⟨1, ![16]⟩
abbrev S1 : Shape := ⟨1, ![1]⟩

abbrev nBuf : Space → Nat
  | .hbm => 43
  | .vmem => 11
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100, .f32⟩
  | .hbm, ⟨3, _⟩ => ⟨S100, .f32⟩
  | .hbm, ⟨4, _⟩ => ⟨S512x512, .f32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i1⟩
  | .hbm, ⟨18, _⟩ => ⟨S512x512, .f32⟩
  | .hbm, ⟨19, _⟩ => ⟨S512x512, .i1⟩
  | .hbm, ⟨20, _⟩ => ⟨S512x512, .f32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S512, .f32⟩
  | .hbm, ⟨30, _⟩ => ⟨S512x1, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x1, .f32⟩
  | .local _ .vmem, ⟨9, _⟩ => ⟨S16x1, .f32⟩
  | .local _ .vmem, ⟨10, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S_S512 : S_.BroadcastsInDim S512 (![] : Fin 0 → Fin S512.rank)
  shapeCasts_S512_S512x1 : S512.ShapeCasts S512x1
  inb_S1x1_S1x1_0_0 : ∀ a, (![0, 0] : Fin 2 → Nat) a + S1x1.size a ≤ S1x1.size a
  h_S1x1 : 0 < S1x1.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16x1x1 : S16x1.ShapeCasts S16x1x1
  slices_S16x512_o0_0_S16x128 : S16x512.Slices ![0, 0] S16x128
  shapeCasts_S16x512_S16x512x1 : S16x512.ShapeCasts S16x512x1
  shapeCasts_S16x128_S16x1x128 : S16x128.ShapeCasts S16x1x128
  broadcasts_S16x512x1_S16x512x128 : S16x512x1.Broadcasts S16x512x128
  broadcasts_S16x1x128_S16x512x128 : S16x1x128.Broadcasts S16x512x128
  broadcasts_S16x1x1_S16x512x128 : S16x1x1.Broadcasts S16x512x128
  reduces_S16x512x128_S16x512 : S16x512x128.Reduces [2] S16x512
  reduces_S16x512_S16 : S16x512.Reduces [1] S16
  shapeCasts_S16_S16x1 : S16.ShapeCasts S16x1
  slices_S16x512_o0_128_S16x128 : S16x512.Slices ![0, 128] S16x128
  slices_S16x512_o0_256_S16x128 : S16x512.Slices ![0, 256] S16x128
  slices_S16x512_o0_384_S16x128 : S16x512.Slices ![0, 384] S16x128
  shapeCasts_S1x1_S1x1 : S1x1.ShapeCasts S1x1
  reduces_S16x1_S1 : S16x1.Reduces [0] S1
  shapeCasts_S1_S1x1 : S1.ShapeCasts S1x1
  shapeCasts_S1x1_S_ : S1x1.ShapeCasts S_
  reducesTo_S100_S_d0 : S100.ReducesTo [0] S_
  h_S_ : 0 < S_.numel
  dot_S512x512_S512x512_S512x512_1_0_0_1_n_n_wf : DotDims.WF S512x512 S512x512 S512x512 [1] [0] [0] [1] [] []
  gather_S100_S512x1_S512_n_0_n_n_0_1_1_wf : GatherDims.WF S100 S512x1 S512 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S512x512.size a
  hwx1_0 : ∀ i : grid1.Coords, EltTy.bits .f32 = 32 ∨ (Rect.block (s := S512x512) S16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S512x512.size a
  hwx1_1 : ∀ i : grid1.Coords, EltTy.bits .f32 = 32 ∨ (Rect.block (s := S512x512) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S512x512.size a
  hwx1_2 : ∀ i : grid1.Coords, EltTy.bits .f32 = 32 ∨ (Rect.block (s := S512x512) S16x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S512x1.size a
  hwx1_3 : ∀ i : grid1.Coords, EltTy.bits .f32 = 32 ∨ (Rect.block (s := S512x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def gather_S100_S512x1_S512_n_0_n_n_0_1_1 : GatherDims S100 S512x1 S512 where
  offsetDims := []
  collapsedSliceDims := [0]
  operandBatchingDims := []
  startIndicesBatchingDims := []
  startIndexMap := [0]
  indexVectorDim := 1
  sliceSizes := ![1]
  wf := gather_S100_S512x1_S512_n_0_n_n_0_1_1_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S16x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x512 : Shape := ⟨2, ![512, 512]⟩
abbrev S512 : Shape := ⟨1, ![512]⟩
abbrev S100 : Shape := ⟨1, ![100]⟩
abbrev S512x1 : Shape := ⟨2, ![512, 1]⟩
abbrev S1x512 : Shape := ⟨2, ![1, 512]⟩
abbrev S_ : Shape := ⟨0, ![]⟩
abbrev S512x512x1 : Shape := ⟨3, ![512, 512, 1]⟩
abbrev S512x1x512 : Shape := ⟨3, ![512, 1, 512]⟩
abbrev S512x512x512 : Shape := ⟨3, ![512, 512, 512]⟩
abbrev S512x1x1 : Shape := ⟨3, ![512, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100, .f32⟩
  | .hbm, ⟨3, _⟩ => ⟨S100, .f32⟩
  | .hbm, ⟨4, _⟩ => ⟨S512x512, .f32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i1⟩
  | .hbm, ⟨18, _⟩ => ⟨S512x512, .i1⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .f32⟩
  | .hbm, ⟨28, _⟩ => ⟨S512x512x1, .f32⟩
  | .hbm, ⟨29, _⟩ => ⟨S512x1x512, .f32⟩
  | .hbm, ⟨30, _⟩ => ⟨S512x512x512, .f32⟩
  | .hbm, ⟨31, _⟩ => ⟨S512x512x512, .f32⟩
  | .hbm, ⟨32, _⟩ => ⟨S512x512x512, .f32⟩
  | .hbm, ⟨33, _⟩ => ⟨S512x1x1, .f32⟩
  | .hbm, ⟨34, _⟩ => ⟨S512x512x512, .f32⟩
  | .hbm, ⟨35, _⟩ => ⟨S512x512x512, .f32⟩
  | .hbm, ⟨36, _⟩ => ⟨S512x512x1, .i1⟩
  | .hbm, ⟨37, _⟩ => ⟨S512x1x512, .i1⟩
  | .hbm, ⟨38, _⟩ => ⟨S512x512x512, .i1⟩
  | .hbm, ⟨39, _⟩ => ⟨S512x512x512, .i1⟩
  | .hbm, ⟨40, _⟩ => ⟨S512x512x512, .i1⟩
  | .hbm, ⟨41, _⟩ => ⟨S_, .f32⟩
  | .hbm, ⟨42, _⟩ => ⟨S512x512x512, .f32⟩
  | .hbm, ⟨43, _⟩ => ⟨S512x512x512, .f32⟩
  | .hbm, ⟨44, _⟩ => ⟨S_, .f32⟩
  | .hbm, ⟨45, _⟩ => ⟨S_, .f32⟩
  | .hbm, ⟨46, _⟩ => ⟨S512x512x512, .f32⟩
  | .hbm, ⟨47, _⟩ => ⟨S512x512x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S_S512 : S_.BroadcastsInDim S512 (![] : Fin 0 → Fin S512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S512_S512x1x1_0 : S512.BroadcastsInDim S512x1x1 (![0] : Fin 1 → Fin S512x1x1.rank)
  bcast_S512x1x1_S512x512x512_0_1_2 : S512x1x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  h_S_ : 0 < S_.numel
  reducesTo_S100_S_d0 : S100.ReducesTo [0] S_
  dot_S512x512_S512x512_S512x512_1_1_0_0_n_n_wf : DotDims.WF S512x512 S512x512 S512x512 [1] [1] [0] [0] [] []
  gather_S100_S512x1_S512_n_0_n_n_0_1_1_wf : GatherDims.WF S100 S512x1 S512 [] [0] [] [0] [] 1 ![1]

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def gather_S100_S512x1_S512_n_0_n_n_0_1_1 : GatherDims S100 S512x1 S512 where
  offsetDims := []
  collapsedSliceDims := [0]
  operandBatchingDims := []
  startIndicesBatchingDims := []
  startIndexMap := [0]
  indexVectorDim := 1
  sliceSizes := ![1]
  wf := gather_S100_S512x1_S512_n_0_n_n_0_1_1_wf

class Facts : Prop extends Facts₀ where

variable [Facts]
-- ==== Proof.KernelRun.lean ====
/-
  The idealized kernel's run with its result named.

  The program is two kernel regions among three stretches of host operations. Its buffer contents at each boundary are a
  fold from the launch memory: the first region's write-backs, the host operations between the regions, the second
  region's write-backs, the host operations after it. Every weakly fair execution terminates, nothing faulting, with each
  unscoped buffer at the last boundary's contents; read at the result buffer that is the fold's value there, and at the
  four arguments it is the launch memory.
-/
import proofs.«131220_j4956392259672_2_alg».proof.Proof.Gen.KernelIdeal.Frame

set_option maxRecDepth 16384

noncomputable section

namespace Cert.KernelIdeal.HingeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the four
    argument arrays as launched. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.HingeRun

end
-- ==== Proof.Region0.lean ====
/-
  The first kernel region: the similarity matrix.

  Its grid has one point and both of its windows are the whole 512 × 512 arrays, so the block the body loads is the
  argument array itself and the one block written back is the result array: after the region the result array holds the
  body's product of the argument array with its own transpose.
-/
import proofs.«131220_j4956392259672_2_alg».proof.Proof.Gen.KernelIdeal.Frame
import Idealize.ShloMosaic.Lib.Pipeline.Value

set_option maxRecDepth 16384

noncomputable section

namespace Cert.KernelIdeal.HingeGram

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Both windows sit at block (0, 0) at the grid's one point. -/
theorem block_index : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input block is the argument array. -/
theorem input_block (c : Dev nD) (t : Fin cfg0.N) : (iblk0 V c 0 t : Vec F S512x512 .f32) = V c main_arg0 := by
  obtain ⟨e0, e1, -, -⟩ := block_index t
  funext j
  unfold iblk0
  rw [View.read_apply]
  show V c main_arg0 (((cfg0.win 0).blk t).view.emb j) = V c main_arg0 j
  refine congrArg (V c main_arg0) ?_
  funext a
  apply Fin.ext
  match a with
  | ⟨0, _⟩ => show win0_0.index t (0 : Fin 2) * 512 + 1 * (j 0).val = (j 0).val; omega
  | ⟨1, _⟩ => show win0_0.index t (1 : Fin 2) * 512 + 1 * (j 1).val = (j 1).val; omega

/-- What the one point writes back is the product array read through the whole-array block. -/
theorem flushed_eq (c : Dev nD) (t : Fin cfg0.N) :
    (dat0 V c).flushed 1 t = ((cfg0.win 1).blk t).view.read (Elt F) (k0_pay1 (V c main_arg0)) := by
  obtain ⟨-, -, e2, e3⟩ := block_index t
  show (cfg0.win 1).cut (grid0.coords t) ((dat0 V c).after 1 t) = _
  rw [after0_1]
  unfold out0_1
  rw [View.canon_unit_zero zero_offsets]
  simp only [View.ld_unit_zero (S := S512x512) zero_offsets]
  rw [input_block]
  funext j
  show k0_pay1 (V c main_arg0) j = k0_pay1 (V c main_arg0) (((cfg0.win 1).blk t).view.emb j)
  refine congrArg (k0_pay1 (V c main_arg0)) ?_
  funext a
  apply Fin.ext
  match a with
  | ⟨0, _⟩ => show (j 0).val = win0_1.index t (0 : Fin 2) * 512 + 1 * (j 0).val; omega
  | ⟨1, _⟩ => show (j 1).val = win0_1.index t (1 : Fin 2) * 512 + 1 * (j 1).val; omega

/-- After the region the result array is the product array. -/
theorem result_array (c : Dev nD) : (dat0 V c).arrAt 1 cfg0.N = k0_pay1 (V c main_arg0) :=
  (dat0 V c).arrAt_eq_of_cover 1 (k0_pay1 (V c main_arg0)) (fun t _ => flushed_eq V c t) fun i =>
    ⟨t0_0, flush0_1 t0_0, by
      show i ∈ ((View.whole main_v0).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_1.index t0_0 0 * win0_1.size 0 ≤ (i 0 : Nat) ∧ (i 0 : Nat) < win0_1.index t0_0 0 * win0_1.size 0 + win0_1.xsize (grid0.coords t0_0) 0
        rw [show win0_1.index t0_0 0 * win0_1.size 0 = 0 from by decide +kernel, show win0_1.xsize (grid0.coords t0_0) 0 = 512 from by decide +kernel]; omega
      | ⟨1, _⟩ =>
        show win0_1.index t0_0 1 * win0_1.size 1 ≤ (i 1 : Nat) ∧ (i 1 : Nat) < win0_1.index t0_0 1 * win0_1.size 1 + win0_1.xsize (grid0.coords t0_0) 1
        rw [show win0_1.index t0_0 1 * win0_1.size 1 = 0 from by decide +kernel, show win0_1.xsize (grid0.coords t0_0) 1 = 512 from by decide +kernel]; omega⟩

end Cert.KernelIdeal.HingeGram

end
-- ==== Proof.Stretch1.lean ====
/-
  Between the two kernel regions: the arrays the second region is entered with.

  The host operations between the regions compute, from the label vector, the mask of positive pairs (same label, off the
  diagonal) and the mask of negative pairs (different labels), each converted to floats, and from the labels and the margin
  table the per-anchor margins as a column; they leave the similarity matrix the first region wrote untouched. Each is the
  same chain of host operations, of the same argument, that the reference program's stages name.
-/
import proofs.«131220_j4956392259672_2_alg».proof.Proof.Region0
import proofs.«131220_j4956392259672_2_alg».proof.Proof.Gen.ReferenceIdeal.Read
import Idealize.ShloMosaic.Lib.StableHlo.Run

set_option maxRecDepth 16384

noncomputable section

namespace Cert.KernelIdeal.HingeMasks

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- After the first region the label vector and the two margin tables are as launched. -/
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)

/-- After the first region its result array is the product array of the launched argument. -/
theorem exit0_sim (c : Dev nD) :
    W1 m ρ c (Proc.devRef .tc main_v0) = k0_pay1 (m ((c : Thread nD τ).loc main_arg0)) :=
  (W1_arr m ρ c 1).trans (HingeGram.result_array (V0 m ρ) c)

/-- The second region is entered with the similarity matrix as the first region left it, -/
theorem entry1_sim (c : Dev nD) :
    W2 m ρ c (Proc.devRef .tc main_v0) = k0_pay1 (m ((c : Thread nD τ).loc main_arg0)) := by
  show StableHlo.after hostOps1 (W1 m ρ c) (Proc.devRef .tc main_v0) = _
  have h := exit0_sim m ρ c
  generalize W1 m ρ c = W at h ⊢
  after_results_simp
  exact h

/-- with the positive-pair mask as floats, -/
theorem entry1_pos (c : Dev nD) :
    W2 m ρ c (Proc.devRef .tc main_v13)
      = uitofp .f32 (Cert.ReferenceIdeal.Read.val_main_v12 (F := F) (m ((c : Thread nD τ).loc main_arg1))) := by
  show StableHlo.after hostOps1 (W1 m ρ c) (Proc.devRef .tc main_v13) = _
  rw [← exit0_arg1 m ρ c]
  generalize W1 m ρ c = W
  after_results_simp
  rfl

/-- the negative-pair mask as floats, -/
theorem entry1_neg (c : Dev nD) :
    W2 m ρ c (Proc.devRef .tc main_v15)
      = uitofp .f32 (Cert.ReferenceIdeal.Read.val_main_v13 (F := F) (m ((c : Thread nD τ).loc main_arg1))) := by
  show StableHlo.after hostOps1 (W1 m ρ c) (Proc.devRef .tc main_v15) = _
  rw [← exit0_arg1 m ρ c]
  generalize W1 m ρ c = W
  after_results_simp
  rfl

/-- and the per-anchor margins laid out as a column. -/
theorem entry1_margin (c : Dev nD) (hcast : Cert.ReferenceIdeal.S512.ShapeCasts S512x1) :
    W2 m ρ c (Proc.devRef .tc main_v23)
      = shapeCast S512x1 (Cert.ReferenceIdeal.Read.val_main_v20 (F := F) (m ((c : Thread nD τ).loc main_arg1))
          (m ((c : Thread nD τ).loc main_arg2))) hcast := by
  show StableHlo.after hostOps1 (W1 m ρ c) (Proc.devRef .tc main_v23) = _
  rw [← exit0_arg1 m ρ c, ← exit0_arg2 m ρ c]
  generalize W1 m ρ c = W
  after_results_simp
  rfl

end Cert.KernelIdeal.HingeMasks

end
-- ==== Proof.Hinge.lean ====
/-
  The triplet hinge sum over a 512 × 512 similarity matrix, and the vector expressions a row-block kernel evaluates it with.

  For a matrix D, two 0/1 masks p (positive pairs) and q (negative pairs) and a per-anchor margin μ, the sum is
      Σ_i Σ_j Σ_k  [p(i,j) ∧ q(i,k)] · max (D(i,j) − D(i,k) + μ(i), 0).
  A kernel that walks the anchors sixteen rows at a time and the negatives 128 columns at a time forms, for one block of
  rows and one chunk of columns, the rank-3 array  (a(r,j)·b(r,o+k)) · max ((d(r,j) − d(r,o+k)) + m(r), 0)  with the masks as
  floats a, b, sums it over k and then j (`chunk`), adds the four chunks row by row from zero, sums the sixteen rows and
  adds that to the running total (`pointUpdate`).
-/
import Idealize.ShloMosaic.PureOps.Ideal.Laws
import Idealize.ShloMosaic.Lib.Pipeline.Value
import Idealize.ShloMosaic.Lib.ValueIdx

noncomputable section

namespace Cert.Hinge

open Idealize.ShloMosaic Idealize.ShloMosaic.ValueIdx

/-! ## The sum -/

abbrev SBB : Shape := ⟨2, ![512, 512]⟩
abbrev SB : Shape := ⟨1, ![512]⟩

/-- One triple (anchor i, positive j, negative k): the hinge of the margin-shifted gap, counted when both masks hold. -/
def triple (D : SBB.Idx → EReal) (p q : SBB.Idx → BitVec 1) (μ : SB.Idx → EReal) (i j k : Fin 512) : EReal :=
  if p (ix2 i j) &&& q (ix2 i k) = 1#1 then max ((D (ix2 i j) - D (ix2 i k)) + μ (ix1 i)) 0 else 0

/-- The hinge sum over all triples. -/
def hingeSum (D : SBB.Idx → EReal) (p q : SBB.Idx → BitVec 1) (μ : SB.Idx → EReal) : EReal :=
  ∑ i : Fin 512, ∑ j : Fin 512, ∑ k : Fin 512, triple D p q μ i j k

/-! ## One block of sixteen anchors, one chunk of 128 negatives -/

abbrev R2 : Shape := ⟨2, ![16, 512]⟩
abbrev C2 : Shape := ⟨2, ![16, 128]⟩
abbrev R1 : Shape := ⟨1, ![16]⟩
abbrev K2 : Shape := ⟨2, ![16, 1]⟩
abbrev K3 : Shape := ⟨3, ![16, 1, 1]⟩
abbrev J3 : Shape := ⟨3, ![16, 512, 1]⟩
abbrev N3 : Shape := ⟨3, ![16, 1, 128]⟩
abbrev T3 : Shape := ⟨3, ![16, 512, 128]⟩
abbrev U1 : Shape := ⟨1, ![1]⟩
abbrev U2 : Shape := ⟨2, ![1, 1]⟩

/-- The shape facts the vector operations below take. -/
structure Facts : Prop where
  cJ : R2.ShapeCasts J3
  cN : C2.ShapeCasts N3
  bJ : J3.Broadcasts T3
  bN : N3.Broadcasts T3
  bK : K3.Broadcasts T3
  rK : T3.Reduces [2] R2
  rJ : R2.Reduces [1] R1
  cR : R1.ShapeCasts K2
  rR : K2.Reduces [0] U1
  cU : U1.ShapeCasts U2
  cUU : U2.ShapeCasts U2
  hφ : FKind.Formats .f32
  hacc : (0x00000000#32 : BitVec 32) = FKind.add.neutral .f32 hφ

variable {F : FTy → Type} [FloatOps F]

/-- Rows' sums, over the positives j and the chunk's negatives k, of the weighted hinges: d the similarity rows, a and b
    the two masks' rows as floats, m the rows' margins, off the chunk's offset. -/
def chunk (h : Facts) (d a b : FVec F R2 .f32) (m : FVec F K3 .f32) (off : Fin 2 → ℕ) (hs : R2.Slices off C2) :
    FVec F R1 .f32 :=
  multiReduction .add [1] R1
    (multiReduction .add [2] R2
      (mulf
        (mulf (broadcastTo T3 (shapeCast J3 a h.cJ) h.bJ)
          (broadcastTo T3 (shapeCast N3 (extractStridedSlice C2 off b hs) h.cN) h.bN))
        (maximumf
          (addf
            (subf (broadcastTo T3 (shapeCast J3 d h.cJ) h.bJ)
              (broadcastTo T3 (shapeCast N3 (extractStridedSlice C2 off d hs) h.cN) h.bN))
            (broadcastTo T3 m h.bK))
          (broadcast T3 (Scalar.ofBits .f32 0x00000000#32))))
      0x00000000#32 h.rK h.hφ h.hacc)
    0x00000000#32 h.rJ h.hφ h.hacc

/-- The running total after one block of rows: the four chunks' row sums added from zero, first to last, the sixteen rows
    summed, and that added to the total so far. -/
def pointUpdate (h : Facts) (d a b : FVec F R2 .f32) (m : FVec F K3 .f32) (acc : FVec F U2 .f32)
    (hs0 : R2.Slices ![0, 0] C2) (hs1 : R2.Slices ![0, 128] C2) (hs2 : R2.Slices ![0, 256] C2)
    (hs3 : R2.Slices ![0, 384] C2) : FVec F U2 .f32 :=
  addf (shapeCast U2 acc h.cUU)
    (shapeCast U2
      (multiReduction .add [0] U1
        (addf
          (addf
            (addf
              (addf (broadcast K2 (Scalar.ofBits .f32 0x00000000#32)) (shapeCast K2 (chunk h d a b m ![0, 0] hs0) h.cR))
              (shapeCast K2 (chunk h d a b m ![0, 128] hs1) h.cR))
            (shapeCast K2 (chunk h d a b m ![0, 256] hs2) h.cR))
          (shapeCast K2 (chunk h d a b m ![0, 384] hs3) h.cR))
        0x00000000#32 h.rR h.hφ h.hacc)
      h.cU)

/-! ## The same at the extended reals, as plain sums -/

/-- Column o + k of the 512, for k inside a chunk of 128 that fits. -/
abbrev colAt (o : ℕ) (ho : o + 128 ≤ 512) (k : Fin 128) : Fin 512 := ⟨o + k.val, by have := k.isLt; omega⟩

/-- One row's weighted hinge against column c: the float masks multiplied in. -/
def wterm (d a b : R2.Idx → EReal) (m : K3.Idx → EReal) (r : Fin 16) (j c : Fin 512) : EReal :=
  (a (ix2 r j) * b (ix2 r c)) * max ((d (ix2 r j) - d (ix2 r c)) + m (ix3 r (0 : Fin 1) (0 : Fin 1))) 0

end Cert.Hinge

end
-- ==== Proof.Region1.lean ====
/-
  The second kernel region: the running hinge total over the thirty-two blocks of sixteen anchors.

  The region's one output block, a single number, never moves: it is zeroed at the first grid point, every point adds its
  sixteen rows' sum to it, and it is written back once, after the last point. At a point the body's store is the update of
  the hinge vocabulary (`Cert.Hinge.pointUpdate`) applied to the point's four input blocks and to what the block held: the
  zero just stored at the first point, the previous point's result at the others. So the result array ends at the update
  chain over the thirty-two points in order.
-/
import proofs.«131220_j4956392259672_2_alg».proof.Proof.Gen.KernelIdeal.Frame
import proofs.«131220_j4956392259672_2_alg».proof.Proof.Hinge
import Idealize.ShloMosaic.Lib.Pipeline.Value
import Idealize.ShloMosaic.Lib.Tactic

set_option maxRecDepth 16384

noncomputable section

namespace Cert.KernelIdeal.HingePoints

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem zero_offsets : (![0, 0] : Fin 2 → Nat) = fun _ => 0 := funext fun a => by fin_cases a <;> rfl

/-- The shape facts of the hinge vocabulary, at this kernel's literal shapes. -/
theorem facts : Cert.Hinge.Facts where
  cJ := by decide
  cN := by decide
  bJ := by decide
  bN := by decide
  bK := by decide
  rK := by decide
  rJ := by decide
  cR := by decide
  rR := by decide
  cU := by decide
  cUU := by decide
  hφ := .inl rfl
  hacc := rfl

theorem slice0 : Cert.Hinge.R2.Slices ![0, 0] Cert.Hinge.C2 := by decide
theorem slice1 : Cert.Hinge.R2.Slices ![0, 128] Cert.Hinge.C2 := by decide
theorem slice2 : Cert.Hinge.R2.Slices ![0, 256] Cert.Hinge.C2 := by decide
theorem slice3 : Cert.Hinge.R2.Slices ![0, 384] Cert.Hinge.C2 := by decide

/-- The margin column as the body uses it: a rank-3 array with two unit axes. -/
abbrev marginCol (x3 : Vec F S16x1 .f32) : FVec F Cert.Hinge.K3 .f32 := k1_pay6 x3

/-- The body's stored value, in the hinge vocabulary: the update of the four loaded blocks and the block's contents. The
    body's intermediate values are the vocabulary's terms, operation for operation. -/
theorem stored_eq (x0 x1 x2 : Vec F S16x512 .f32) (x3 : Vec F S16x1 .f32) (acc : Vec F S1x1 .f32) :
    k1_pay1
        (k1_pay11 (k1_pay3 x0) (k1_pay4 x1) (k1_pay5 x2) (k1_pay6 x3) (k1_pay7 x0 x1 x2 x3) (k1_pay8 x2) (k1_pay9 x0 x3)
          (k1_pay10 x1))
        (k1_pay12 (k1_pay3 x0) (k1_pay4 x1) (k1_pay5 x2) (k1_pay6 x3)) acc
      = Cert.Hinge.pointUpdate facts (k1_pay3 x0) (k1_pay4 x1) (k1_pay5 x2) (marginCol x3) acc slice0 slice1 slice2 slice3 :=
  rfl

/-- A point other than the first: the body leaves, in the output block holding `xo`, the update of the point's blocks and
    `xo`. -/
theorem later_point (c : Dev nD) (i : grid1.Coords) (a1 : Memref sig .tc .vmem S16x512 .f32) (h1 : a1.IsWhole)
    (a2 : Memref sig .tc .vmem S16x512 .f32) (h2 : a2.IsWhole) (a3 : Memref sig .tc .vmem S16x512 .f32) (h3 : a3.IsWhole)
    (a4 : Memref sig .tc .vmem S16x1 .f32) (h4 : a4.IsWhole) (a5 : Memref sig .tc .vmem S1x1 .f32) (h5 : a5.IsWhole)
    (hc : ¬cond1_0 i) (x0 x1 x2 : Vec F S16x512 .f32) (x3 : Vec F S16x1 .f32) (xo : Vec F S1x1 .f32) :
    out1_B_4 c i a1 h1 a2 h2 a3 h3 a4 h4 a5 h5 hc x0 x1 x2 x3 xo
      = Cert.Hinge.pointUpdate facts (k1_pay3 x0) (k1_pay4 x1) (k1_pay5 x2) (marginCol x3) xo slice0 slice1 slice2 slice3 := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero zero_offsets]
  simp only [View.readAt_eq_ld, h1.read_unread, h2.read_unread, h3.read_unread, h4.read_unread, h5.read_unread,
    View.ld_unit_zero (S := S16x512) zero_offsets, View.ld_unit_zero (S := S16x1) zero_offsets,
    View.ld_unit_zero (S := S1x1) zero_offsets]
  exact stored_eq x0 x1 x2 x3 xo

/-- The first point: the body stores the zero, reads it back, and leaves the update of the point's blocks and that zero. -/
theorem first_point (c : Dev nD) (i : grid1.Coords) (a1 : Memref sig .tc .vmem S16x512 .f32) (h1 : a1.IsWhole)
    (a2 : Memref sig .tc .vmem S16x512 .f32) (h2 : a2.IsWhole) (a3 : Memref sig .tc .vmem S16x512 .f32) (h3 : a3.IsWhole)
    (a4 : Memref sig .tc .vmem S16x1 .f32) (h4 : a4.IsWhole) (a5 : Memref sig .tc .vmem S1x1 .f32) (h5 : a5.IsWhole)
    (hc : cond1_0 i) (x0 x1 x2 : Vec F S16x512 .f32) (x3 : Vec F S16x1 .f32) :
    out1_A_4 c i a1 h1 a2 h2 a3 h3 a4 h4 a5 h5 hc x0 x1 x2 x3
      = Cert.Hinge.pointUpdate facts (k1_pay3 x0) (k1_pay4 x1) (k1_pay5 x2) (marginCol x3) (k1_pay2 (F := F)) slice0 slice1 slice2
          slice3 := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) zero_offsets, View.readCov_unit_zero (S := S1x1) _ zero_offsets]
  simp only [View.readAt_eq_ld, h1.read_unread, h2.read_unread, h3.read_unread, h4.read_unread,
    View.ld_unit_zero (S := S16x512) zero_offsets, View.ld_unit_zero (S := S16x1) zero_offsets,
    View.ld_unit_zero (S := S1x1) zero_offsets]
  exact stored_eq x0 x1 x2 x3 k1_pay2

variable (V : (c : Dev nD) → (b : Ref sig .tc) → Buf (Elt F) ((c : Thread nD τ).loc b))

/-- The update at grid point `t` of the contents `acc`: over the point's four input blocks. -/
def step (c : Dev nD) (t : Fin cfg1.N) (acc : Vec F S1x1 .f32) : Vec F S1x1 .f32 :=
  Cert.Hinge.pointUpdate facts (k1_pay3 (iblk1 V c 0 t)) (k1_pay4 (iblk1 V c 1 t)) (k1_pay5 (iblk1 V c 2 t))
    (marginCol (iblk1 V c 3 t)) acc slice0 slice1 slice2 slice3

/-- The running total after point `n`: the update chain from the stored zero. -/
def total (c : Dev nD) : (n : ℕ) → n < cfg1.N → Vec F S1x1 .f32
  | 0, h => step V c ⟨0, h⟩ (k1_pay2 (F := F))
  | n + 1, h => step V c ⟨n + 1, h⟩ (total c n (Nat.lt_of_succ_lt h))

/-- What the output block holds after point `n` is the running total — by induction on the point. -/
theorem outsAt_eq (c : Dev nD) : ∀ (n : ℕ) (h : n < cfg1.N), outsAt1 V c n h = total V c n h
  | 0, h => (outsAt1_A V c ⟨0, h⟩ rfl).trans (first_point ..)
  | n + 1, h => by
    have hN : cfg1.N = 32 := N_1
    have hB : ¬(⟨n + 1, h⟩ : Fin cfg1.N).val % 32 = 0 := by dsimp only; omega
    rw [outsAt1_B V c ⟨n + 1, h⟩ hB, later_point]
    show step V c ⟨n + 1, h⟩ (outsAt1 V c n _) = step V c ⟨n + 1, h⟩ (total V c n _)
    rw [outsAt_eq c n]

/-- The last point. -/
def lastPoint : Fin cfg1.N := ⟨31, by rw [show cfg1.N = 32 from N_1]; decide⟩

/-- The result: the running total after the last point. -/
abbrev result (c : Dev nD) : Buf (Elt F) ((c : Thread nD τ).loc main_v24) := total V c 31 lastPoint.isLt

/-- The one write-back, after the last point, writes it: block (0, 0) of the 1 × 1 array is the array. -/
theorem flushed_eq (c : Dev nD) (t : Fin cfg1.N) (hf : (cfg1.win 4).flush t = true) :
    (dat1 V c).flushed 4 t = ((cfg1.win 4).blk t).view.read (Elt F) (result V c) := by
  have hN : cfg1.N = 32 := N_1
  have h31 : t.val = 31 := by have := (flush1_4 t).mp hf; have := t.isLt; omega
  obtain rfl : t = lastPoint := Fin.ext h31
  show (cfg1.win 4).cut (grid1.coords lastPoint) ((dat1 V c).after 4 lastPoint) = _
  rw [after1_4, outsAt_eq]
  have hz' : (fun a => win1_4.index lastPoint a * main_v24.ty.shape.size a) = fun _ => 0 :=
    funext fun a => by fin_cases a <;> decide +kernel
  exact (Memref.read_access_unit_zero (Elt F) main_v24 hz' (fun a => by rw [congrFun hz' a]; simp) (result V c)).symm

/-- So the result array ends holding the running total after the last point. -/
theorem result_array (c : Dev nD) : (dat1 V c).arrAt 4 cfg1.N = result V c :=
  (dat1 V c).arrAt_eq_of_cover 4 (result V c) (flushed_eq V c) fun i =>
    ⟨lastPoint, (flush1_4 lastPoint).mpr rfl, by
      show i ∈ ((View.whole main_v24).slice (win1_4.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index lastPoint 0 * win1_4.size 0 ≤ (i 0 : Nat) ∧ (i 0 : Nat) < win1_4.index lastPoint 0 * win1_4.size 0 + win1_4.xsize (grid1.coords lastPoint) 0
        rw [show win1_4.index lastPoint 0 * win1_4.size 0 = 0 from by decide +kernel, show win1_4.xsize (grid1.coords lastPoint) 0 = 1 from by decide +kernel]; omega
      | ⟨1, _⟩ =>
        show win1_4.index lastPoint 1 * win1_4.size 1 ≤ (i 1 : Nat) ∧ (i 1 : Nat) < win1_4.index lastPoint 1 * win1_4.size 1 + win1_4.xsize (grid1.coords lastPoint) 1
        rw [show win1_4.index lastPoint 1 * win1_4.size 1 = 0 from by decide +kernel, show win1_4.xsize (grid1.coords lastPoint) 1 = 1 from by decide +kernel]; omega⟩

end Cert.KernelIdeal.HingePoints

end
-- ==== Proof.Tail.lean ====
/-
  After the second kernel region: the program's result.

  The host operations after the region read the 1 × 1 total as a scalar and subtract from it the two margin regularizers, the
  means of the two margin tables (each table's sum from zero, divided by one hundred) — the same operations, of the same
  arguments, as the reference program's last stages.
-/
import proofs.«131220_j4956392259672_2_alg».proof.Proof.Stretch1
import proofs.«131220_j4956392259672_2_alg».proof.Proof.Region1

set_option maxRecDepth 16384

noncomputable section

namespace Cert.KernelIdeal.HingeTail

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- After the second region its result array is the running total after the last point. -/
theorem exit1_total (c : Dev nD) :
    W3 m ρ c (Proc.devRef .tc main_v24) = HingePoints.result (V2 m ρ) c :=
  (W3_arr m ρ c 4).trans (HingePoints.result_array (V2 m ρ) c)

/-- After the second region the two margin tables are as launched. -/
theorem exit1_arg2 (c : Dev nD) : W3 m ρ c (Proc.devRef .tc main_arg2) = m ((c : Thread nD τ).loc main_arg2) := by
  rw [W3_of_ne m ρ c main_arg2 (by decide)]
  show StableHlo.after hostOps1 (W1 m ρ c) (Proc.devRef .tc main_arg2) = _
  have h := HingeMasks.exit0_arg2 m ρ c
  generalize W1 m ρ c = W at h ⊢
  after_results_simp
  exact h
theorem exit1_arg3 (c : Dev nD) : W3 m ρ c (Proc.devRef .tc main_arg3) = m ((c : Thread nD τ).loc main_arg3) := by
  rw [W3_of_ne m ρ c main_arg3 (by decide)]
  show StableHlo.after hostOps1 (W1 m ρ c) (Proc.devRef .tc main_arg3) = _
  have h := HingeMasks.exit0_arg3 m ρ c
  generalize W1 m ρ c = W at h ⊢
  after_results_simp
  exact h

/-- The program's result: the total as a scalar, less the two regularizers. -/
theorem result_eq (c : Dev nD) (hcast : S1x1.ShapeCasts S_) :
    W4 m ρ c (Proc.devRef .tc main_v31)
      = subf (subf (shapeCast S_ (HingePoints.result (V2 m ρ) c) hcast)
            (Cert.ReferenceIdeal.Read.val_main_v39 (F := F) (m ((c : Thread nD τ).loc main_arg2))))
          (Cert.ReferenceIdeal.Read.val_main_v42 (F := F) (m ((c : Thread nD τ).loc main_arg3))) := by
  show StableHlo.after hostOps2 (W3 m ρ c) (Proc.devRef .tc main_v31) = _
  rw [← exit1_total m ρ c, ← exit1_arg2 m ρ c, ← exit1_arg3 m ρ c]
  generalize W3 m ρ c = W
  after_results_simp
  rfl

end Cert.KernelIdeal.HingeTail

end
-- ==== Proof.ChunkRead.lean ====
/-
  The row-block kernel's vector expressions read at an index, at the extended reals.

  `chunk` is two one-axis sums of a pointwise product of broadcasts of casts of slices; read at (r, j, k) the product is
  one weighted hinge `wterm`, so `chunk` at row r is the double sum over the positives j and the chunk's negatives k.
  `pointUpdate` at its one index is the running total plus the sum over the sixteen rows of the four chunks' row sums added
  from zero, first to last.
-/
import proofs.«131220_j4956392259672_2_alg».proof.Proof.Hinge

noncomputable section

namespace Cert.Hinge

open Idealize.ShloMosaic Idealize.ShloMosaic.ValueIdx

/-! ## The three broadcasts read at (r, j, k) -/

section Reads
variable {α : Type}

/-- A [16,512] array cast to [16,512,1] and broadcast along the last axis reads, at (r, j, k), the array at (r, j). -/
theorem readJ (h : Facts) (x : R2.Idx → α) (r : Fin 16) (j : Fin 512) (k : Fin 128) :
    broadcastTo T3 (shapeCast J3 x h.cJ) h.bJ (ix3 r j k) = x (ix2 r j) := by
  refine (broadcastTo_apply _ h.bJ (ix3 r j k) (ix3 r j (0 : Fin 1)) fun ax => ?_).trans ?_
  · match ax with
    | ⟨0, _⟩ => rfl
    | ⟨1, _⟩ => rfl
    | ⟨2, _⟩ => rfl
  · exact shapeCast_apply x h.cJ _ (ix2 r j) (by
      rw [Shape.rowMajor_val_two, Shape.rowMajor_val_three]
      show r.val * 512 + j.val = (r.val * 512 + j.val) * 1 + 0
      omega)

/-- The columns o … o + 127 of a [16,512] array, cast to [16,1,128] and broadcast along the middle axis, read, at
    (r, j, k), the array at (r, o + k). -/
theorem readN (h : Facts) (x : R2.Idx → α) (o : ℕ) (ho : o + 128 ≤ 512) (hs : R2.Slices ![0, o] C2)
    (r : Fin 16) (j : Fin 512) (k : Fin 128) :
    broadcastTo T3 (shapeCast N3 (extractStridedSlice C2 ![0, o] x hs) h.cN) h.bN (ix3 r j k)
      = x (ix2 r (colAt o ho k)) := by
  refine (broadcastTo_apply _ h.bN (ix3 r j k) (ix3 r (0 : Fin 1) k) fun ax => ?_).trans ?_
  · match ax with
    | ⟨0, _⟩ => rfl
    | ⟨1, _⟩ => rfl
    | ⟨2, _⟩ => rfl
  refine (shapeCast_apply _ h.cN _ (ix2 r k) (by
      rw [Shape.rowMajor_val_two, Shape.rowMajor_val_three]
      show r.val * 128 + k.val = (r.val * 1 + 0) * 128 + k.val
      omega)).trans ?_
  exact extractStridedSlice_apply _ x hs (ix2 r k) (ix2 r (colAt o ho k)) fun ax => by
    match ax with
    | ⟨0, _⟩ => exact (Nat.zero_add _).symm
    | ⟨1, _⟩ => rfl

/-- A [16,1,1] array broadcast to [16,512,128] reads, at (r, j, k), the array at (r, 0, 0). -/
theorem readK (h : Facts) (m : K3.Idx → α) (r : Fin 16) (j : Fin 512) (k : Fin 128) :
    broadcastTo T3 m h.bK (ix3 r j k) = m (ix3 r (0 : Fin 1) (0 : Fin 1)) := by
  refine broadcastTo_apply m h.bK (ix3 r j k) (ix3 r (0 : Fin 1) (0 : Fin 1)) fun ax => ?_
  match ax with
  | ⟨0, _⟩ => rfl
  | ⟨1, _⟩ => rfl
  | ⟨2, _⟩ => rfl

end Reads

/-! ## The reductions' source indices by coordinates -/

/-- Over (r, j), coordinate k inserted on the last axis is (r, j, k). -/
theorem lift_rK (h : Facts) (r : Fin 16) (j : Fin 512) (k : Fin 128) : h.rK.lift (ix2 r j) k = ix3 r j k := by
  funext c
  apply Fin.ext
  match c with
  | ⟨0, _⟩ => rfl
  | ⟨1, _⟩ => rfl
  | ⟨2, _⟩ => rfl

/-- Over r, coordinate j inserted on the last axis is (r, j). -/
theorem lift_rJ (h : Facts) (r : Fin 16) (j : Fin 512) : h.rJ.lift (ix1 r) j = ix2 r j := by
  funext c
  apply Fin.ext
  match c with
  | ⟨0, _⟩ => rfl
  | ⟨1, _⟩ => rfl

/-- Over the one index of [1], coordinate r inserted on the first axis is (r, 0). -/
theorem lift_rR (h : Facts) (r : Fin 16) : h.rR.lift (ix1 (0 : Fin 1)) r = ix2 r (0 : Fin 1) := by
  funext c
  apply Fin.ext
  match c with
  | ⟨0, _⟩ => rfl
  | ⟨1, _⟩ => rfl

/-! ## The product at (r, j, k), and the chunk -/

/-- The rank-3 product at (r, j, k) is the weighted hinge of row r, positive j and negative o + k. -/
theorem payload_apply (h : Facts) (d a b : FVec Ideal R2 .f32) (m : FVec Ideal K3 .f32) (o : ℕ) (ho : o + 128 ≤ 512)
    (hs : R2.Slices ![0, o] C2) (r : Fin 16) (j : Fin 512) (k : Fin 128) :
    (mulf
        (mulf (broadcastTo T3 (shapeCast J3 a h.cJ) h.bJ)
          (broadcastTo T3 (shapeCast N3 (extractStridedSlice C2 ![0, o] b hs) h.cN) h.bN))
        (maximumf
          (addf
            (subf (broadcastTo T3 (shapeCast J3 d h.cJ) h.bJ)
              (broadcastTo T3 (shapeCast N3 (extractStridedSlice C2 ![0, o] d hs) h.cN) h.bN))
            (broadcastTo T3 m h.bK))
          (broadcast T3 (Scalar.ofBits (F := Ideal) .f32 0x00000000#32))) : FVec Ideal T3 .f32) (ix3 r j k)
      = wterm d a b m r j (colAt o ho k) := by
  rw [mulf_apply, mulf_apply, maximumf_apply, addf_apply, subf_apply, broadcast_apply,
    readJ h a, readJ h d, readN h b o ho hs, readN h d o ho hs, readK h m]
  show _ * max _ (Ideal.ofBits .f32 0x00000000#32) = _
  rw [Ideal.ofBits_zero_f32]
  rfl

theorem chunk_apply (h : Facts) (d a b : FVec Ideal R2 .f32) (m : FVec Ideal K3 .f32) (o : ℕ) (ho : o + 128 ≤ 512)
    (hs : R2.Slices ![0, o] C2) (r : Fin 16) :
    chunk (F := Ideal) h d a b m ![0, o] hs (ix1 r) = ∑ j : Fin 512, ∑ k : Fin 128, wterm d a b m r j (colAt o ho k) := by
  unfold chunk
  refine (Ideal.multiReduction_add_single _ _ h.rJ h.hφ h.hacc (ix1 r)).trans ?_
  refine Finset.sum_congr rfl fun j _ => ?_
  rw [lift_rJ h r j]
  refine (Ideal.multiReduction_add_single _ _ h.rK h.hφ h.hacc (ix2 r j)).trans ?_
  refine Finset.sum_congr rfl fun k _ => ?_
  rw [lift_rK h r j k]
  exact payload_apply h d a b m o ho hs r j k

/-! ## The running total after one block of rows -/

section Casts
variable {α : Type}

/-- A [16] array cast to [16,1] reads, at (r, 0), the array at r. -/
theorem castR (h : Facts) (c : R1.Idx → α) (r : Fin 16) : shapeCast K2 c h.cR (ix2 r (0 : Fin 1)) = c (ix1 r) :=
  shapeCast_apply c h.cR _ (ix1 r) (by
    rw [Shape.rowMajor_val_one, Shape.rowMajor_val_two]
    show r.val = r.val * 1 + 0
    omega)

/-- A [1] array cast to [1,1] reads, at (0, 0), the array at 0. -/
theorem castU (h : Facts) (c : U1.Idx → α) :
    shapeCast U2 c h.cU (ix2 (0 : Fin 1) (0 : Fin 1)) = c (ix1 (0 : Fin 1)) :=
  shapeCast_apply c h.cU _ (ix1 (0 : Fin 1)) (by
    rw [Shape.rowMajor_val_one, Shape.rowMajor_val_two]
    rfl)

end Casts

theorem pointUpdate_apply (h : Facts) (d a b : FVec Ideal R2 .f32) (m : FVec Ideal K3 .f32) (acc : FVec Ideal U2 .f32)
    (hs0 : R2.Slices ![0, 0] C2) (hs1 : R2.Slices ![0, 128] C2) (hs2 : R2.Slices ![0, 256] C2) (hs3 : R2.Slices ![0, 384] C2) :
    pointUpdate (F := Ideal) h d a b m acc hs0 hs1 hs2 hs3 (ix2 (0 : Fin 1) (0 : Fin 1))
      = acc (ix2 (0 : Fin 1) (0 : Fin 1))
        + ∑ r : Fin 16, ((((0 + ∑ j : Fin 512, ∑ k : Fin 128, wterm d a b m r j (colAt 0 (by omega) k))
            + ∑ j : Fin 512, ∑ k : Fin 128, wterm d a b m r j (colAt 128 (by omega) k))
            + ∑ j : Fin 512, ∑ k : Fin 128, wterm d a b m r j (colAt 256 (by omega) k))
            + ∑ j : Fin 512, ∑ k : Fin 128, wterm d a b m r j (colAt 384 (by omega) k)) := by
  unfold pointUpdate
  rw [addf_apply, shapeCast_self, castU h]
  refine congrArg (acc (ix2 (0 : Fin 1) (0 : Fin 1)) + ·) ?_
  refine (Ideal.multiReduction_add_single _ _ h.rR h.hφ h.hacc (ix1 (0 : Fin 1))).trans ?_
  refine Finset.sum_congr rfl fun (r : Fin 16) _ => ?_
  rw [lift_rR h r, addf_apply, addf_apply, addf_apply, addf_apply, broadcast_apply, castR h, castR h, castR h, castR h,
    chunk_apply h d a b m 0 (by omega) hs0 r, chunk_apply h d a b m 128 (by omega) hs1 r,
    chunk_apply h d a b m 256 (by omega) hs2 r, chunk_apply h d a b m 384 (by omega) hs3 r]
  show (((Ideal.ofBits .f32 0x00000000#32 + _) + _) + _) + _ = _
  rw [Ideal.ofBits_zero_f32]

end Cert.Hinge

end
-- ==== Proof.Regroup.lean ====
/-
  Regrouping the hinge sum: thirty-two blocks of sixteen anchors, four chunks of 128 negatives.

  Over the extended reals addition is commutative and associative with unit 0, so the sum over all triples may be taken block
  of anchors by block, row by row inside a block, and, for each row, as the four chunks' partial sums added from zero — the
  order a row-block kernel forms it in. And a pair of 0/1 masks multiplied in as floats selects exactly the triples on which
  both hold: 0 · x = 0 and 1 · x = x for every extended real x, infinite or not.
-/
import proofs.«131220_j4956392259672_2_alg».proof.Proof.Hinge

noncomputable section

namespace Cert.Hinge

open Idealize.ShloMosaic Idealize.ShloMosaic.ValueIdx

/-- Row r of block t, of the 512. -/
abbrev rowAt (t : Fin 32) (r : Fin 16) : Fin 512 := ⟨16 * t.val + r.val, by have := t.isLt; have := r.isLt; omega⟩

/-- A sum over the 512 anchors, block by block and row by row. -/
theorem sum_rows {M : Type*} [AddCommMonoid M] (f : Fin 512 → M) : ∑ i, f i = ∑ t : Fin 32, ∑ r : Fin 16, f (rowAt t r) := by
  have e : ∑ i, f i = ∑ x : Fin 32 × Fin 16, f (finProdFinEquiv (m := 32) (n := 16) x) :=
    (Equiv.sum_comp (finProdFinEquiv (m := 32) (n := 16)) f).symm
  rw [e, Fintype.sum_prod_type]
  refine Finset.sum_congr rfl fun t _ => Finset.sum_congr rfl fun r _ => congrArg f (Fin.ext ?_)
  show r.val + 16 * t.val = 16 * t.val + r.val
  omega

/-- A sum over the 512 negatives, as its four chunks of 128 added first to last. -/
theorem sum_chunks {M : Type*} [AddCommMonoid M] (f : Fin 512 → M) :
    ∑ c, f c = ((∑ k : Fin 128, f (colAt 0 (by omega) k) + ∑ k : Fin 128, f (colAt 128 (by omega) k))
      + ∑ k : Fin 128, f (colAt 256 (by omega) k)) + ∑ k : Fin 128, f (colAt 384 (by omega) k) := by
  have e : ∑ c, f c = ∑ x : Fin 4 × Fin 128, f (finProdFinEquiv (m := 4) (n := 128) x) :=
    (Equiv.sum_comp (finProdFinEquiv (m := 4) (n := 128)) f).symm
  rw [e, Fintype.sum_prod_type, Fin.sum_univ_four]
  have h : ∀ (c : Fin 4) (o : ℕ) (ho : o + 128 ≤ 512), o = 128 * c.val →
      ∑ k : Fin 128, f (finProdFinEquiv (m := 4) (n := 128) (c, k)) = ∑ k : Fin 128, f (colAt o ho k) := fun c o ho hc =>
    Finset.sum_congr rfl fun k _ => congrArg f (Fin.ext (by
      show k.val + 128 * c.val = o + k.val
      omega))
  rw [h 0 0 (by omega) rfl, h 1 128 (by omega) rfl, h 2 256 (by omega) rfl, h 3 384 (by omega) rfl]

/-- The whole regrouping, for any summand. -/
theorem regroup (g : Fin 512 → Fin 512 → Fin 512 → EReal) :
    (∑ t : Fin 32, ∑ r : Fin 16,
        ((((0 + ∑ j : Fin 512, ∑ k : Fin 128, g (rowAt t r) j (colAt 0 (by omega) k))
          + ∑ j : Fin 512, ∑ k : Fin 128, g (rowAt t r) j (colAt 128 (by omega) k))
          + ∑ j : Fin 512, ∑ k : Fin 128, g (rowAt t r) j (colAt 256 (by omega) k))
          + ∑ j : Fin 512, ∑ k : Fin 128, g (rowAt t r) j (colAt 384 (by omega) k)))
      = ∑ i : Fin 512, ∑ j : Fin 512, ∑ c : Fin 512, g i j c := by
  rw [sum_rows fun i => ∑ j : Fin 512, ∑ c : Fin 512, g i j c]
  refine Finset.sum_congr rfl fun t _ => Finset.sum_congr rfl fun r _ => ?_
  rw [zero_add, ← Finset.sum_add_distrib, ← Finset.sum_add_distrib, ← Finset.sum_add_distrib]
  exact Finset.sum_congr rfl fun j _ => (sum_chunks fun c => g (rowAt t r) j c).symm

/-- The weighted hinge of one triple: the two masks as floats multiplied in. -/
def weighted (D : SBB.Idx → EReal) (p q : SBB.Idx → BitVec 1) (μ : SB.Idx → EReal) (i j c : Fin 512) : EReal :=
  ((((p (ix2 i j)).toNat : ℝ) : EReal) * (((q (ix2 i c)).toNat : ℝ) : EReal))
    * max ((D (ix2 i j) - D (ix2 i c)) + μ (ix1 i)) 0

/-- Two one-bit masks as floats, multiplied onto x, give x where both bits are set and 0 elsewhere. -/
theorem masks_mul (a b : BitVec 1) (x : EReal) :
    ((((a.toNat : ℝ) : EReal)) * (((b.toNat : ℝ) : EReal))) * x = if a &&& b = 1#1 then x else 0 := by
  rcases BitVec.eq_zero_or_eq_one a with ha | ha <;> rcases BitVec.eq_zero_or_eq_one b with hb | hb <;> subst ha <;> subst hb <;>
    simp

theorem weighted_eq_triple (D : SBB.Idx → EReal) (p q : SBB.Idx → BitVec 1) (μ : SB.Idx → EReal) (i j c : Fin 512) :
    weighted D p q μ i j c = triple D p q μ i j c :=
  masks_mul _ _ _

/-- The kernel's order of summation of the weighted hinges is the hinge sum. -/
theorem blocks_eq_hingeSum (D : SBB.Idx → EReal) (p q : SBB.Idx → BitVec 1) (μ : SB.Idx → EReal) :
    (∑ t : Fin 32, ∑ r : Fin 16,
        ((((0 + ∑ j : Fin 512, ∑ k : Fin 128, weighted D p q μ (rowAt t r) j (colAt 0 (by omega) k))
          + ∑ j : Fin 512, ∑ k : Fin 128, weighted D p q μ (rowAt t r) j (colAt 128 (by omega) k))
          + ∑ j : Fin 512, ∑ k : Fin 128, weighted D p q μ (rowAt t r) j (colAt 256 (by omega) k))
          + ∑ j : Fin 512, ∑ k : Fin 128, weighted D p q μ (rowAt t r) j (colAt 384 (by omega) k)))
      = hingeSum D p q μ := by
  rw [regroup]
  exact Finset.sum_congr rfl fun i _ => Finset.sum_congr rfl fun j _ => Finset.sum_congr rfl fun c _ =>
    weighted_eq_triple D p q μ i j c

end Cert.Hinge

end
-- ==== Proof.KernelValue.lean ====
/-
  The second region's total, at the extended reals, is the hinge sum.

  Read at the extended reals, the update at a grid point adds to the total the point's block sum: over the block's sixteen
  rows, the four chunks' row sums of the weighted hinges, added from zero. Block t's rows are anchors 16t … 16t + 15 of the
  arrays the region is entered with, so the total after the last of the thirty-two points is the sum over every block, row,
  positive and chunked negative of the weighted hinges — the hinge sum, regrouped.
-/
import proofs.«131220_j4956392259672_2_alg».proof.Proof.Tail
import proofs.«131220_j4956392259672_2_alg».proof.Proof.ChunkRead
import proofs.«131220_j4956392259672_2_alg».proof.Proof.Regroup

set_option maxRecDepth 16384

noncomputable section

namespace Cert.KernelIdeal.HingeValue

open Cert.KernelIdeal Cert.KernelIdeal.Gen Cert.Hinge
open Idealize.ShloMosaic Idealize.ShloMosaic.TcCoe Idealize.ShloMosaic.ValueIdx Idealize.SL.Sem

/-! ## One block's sum, over any four blocks -/

/-- The margin column cast to rank 3 reads, at (r, 0, 0), the column at (r, 0). -/
theorem margin_read (x : Vec Ideal S16x1 .f32) (r : Fin 16) :
    HingePoints.marginCol (F := Ideal) x (ix3 r (0 : Fin 1) (0 : Fin 1)) = x (ix2 r (0 : Fin 1)) := by
  unfold HingePoints.marginCol k1_pay6
  rw [shapeCast_self]
  exact shapeCast_apply x _ _ (ix2 r (0 : Fin 1)) (by
    rw [Shape.rowMajor_val_two, Shape.rowMajor_val_three]
    show r.val * 1 + 0 = (r.val * 1 + 0) * 1 + 0
    omega)

/-- The weighted hinge over the body's loaded blocks: the loads' self-casts are the identity. -/
theorem wterm_blocks (x0 x1 x2 : Vec Ideal S16x512 .f32) (x3 : Vec Ideal S16x1 .f32) (r : Fin 16) (j cc : Fin 512) :
    wterm (k1_pay3 (F := Ideal) x0) (k1_pay4 (F := Ideal) x1) (k1_pay5 (F := Ideal) x2) (HingePoints.marginCol x3) r j cc
      = (x1 (ix2 r j) * x2 (ix2 r cc)) * max ((x0 (ix2 r j) - x0 (ix2 r cc)) + x3 (ix2 r (0 : Fin 1))) 0 := by
  unfold wterm k1_pay3 k1_pay4 k1_pay5
  rw [margin_read]
  simp only [shapeCast_self]

/-- The sum a grid point adds: over sixteen rows, the four chunks' row sums added from zero. -/
def blockSum (x0 x1 x2 : Vec Ideal S16x512 .f32) (x3 : Vec Ideal S16x1 .f32) : EReal :=
  ∑ r : Fin 16,
    ((((0 + ∑ j : Fin 512, ∑ k : Fin 128, (x1 (ix2 r j) * x2 (ix2 r (colAt 0 (by omega) k)))
            * max ((x0 (ix2 r j) - x0 (ix2 r (colAt 0 (by omega) k))) + x3 (ix2 r (0 : Fin 1))) 0)
        + ∑ j : Fin 512, ∑ k : Fin 128, (x1 (ix2 r j) * x2 (ix2 r (colAt 128 (by omega) k)))
            * max ((x0 (ix2 r j) - x0 (ix2 r (colAt 128 (by omega) k))) + x3 (ix2 r (0 : Fin 1))) 0)
        + ∑ j : Fin 512, ∑ k : Fin 128, (x1 (ix2 r j) * x2 (ix2 r (colAt 256 (by omega) k)))
            * max ((x0 (ix2 r j) - x0 (ix2 r (colAt 256 (by omega) k))) + x3 (ix2 r (0 : Fin 1))) 0)
        + ∑ j : Fin 512, ∑ k : Fin 128, (x1 (ix2 r j) * x2 (ix2 r (colAt 384 (by omega) k)))
            * max ((x0 (ix2 r j) - x0 (ix2 r (colAt 384 (by omega) k))) + x3 (ix2 r (0 : Fin 1))) 0)

/-- The update, read at its one index: the contents so far plus the block sum. -/
theorem update_apply (x0 x1 x2 : Vec Ideal S16x512 .f32) (x3 : Vec Ideal S16x1 .f32) (acc : Vec Ideal S1x1 .f32) :
    pointUpdate (F := Ideal) HingePoints.facts (k1_pay3 x0) (k1_pay4 x1) (k1_pay5 x2) (HingePoints.marginCol x3) acc
        HingePoints.slice0 HingePoints.slice1 HingePoints.slice2 HingePoints.slice3 (ix2 (0 : Fin 1) (0 : Fin 1))
      = acc (ix2 (0 : Fin 1) (0 : Fin 1)) + blockSum x0 x1 x2 x3 := by
  rw [pointUpdate_apply]
  unfold blockSum
  simp only [wterm_blocks]

/-! ## The thirty-two points -/

variable (V : (c : Dev nD) → (b : Ref sig .tc) → Buf (Elt Ideal) ((c : Thread nD τ).loc b))

/-- What point `t` adds. -/
def pointSum (c : Dev nD) (t : Fin cfg1.N) : EReal :=
  blockSum (iblk1 V c 0 t) (iblk1 V c 1 t) (iblk1 V c 2 t) (iblk1 V c 3 t)

theorem step_apply (c : Dev nD) (t : Fin cfg1.N) (acc : Vec Ideal S1x1 .f32) :
    HingePoints.step V c t acc (ix2 (0 : Fin 1) (0 : Fin 1)) = acc (ix2 (0 : Fin 1) (0 : Fin 1)) + pointSum V c t :=
  update_apply (iblk1 V c 0 t) (iblk1 V c 1 t) (iblk1 V c 2 t) (iblk1 V c 3 t) acc

/-- The zero the first point stores. -/
theorem stored_zero : (k1_pay2 (F := Ideal)) (ix2 (0 : Fin 1) (0 : Fin 1)) = 0 := by
  show Ideal.ofBits .f32 0x00000000#32 = 0
  exact Ideal.ofBits_zero_f32

/-- The running total after point `n` is the sum of what points 0 … n add. -/
theorem total_apply (c : Dev nD) : ∀ (n : ℕ) (h : n < cfg1.N),
    HingePoints.total V c n h (ix2 (0 : Fin 1) (0 : Fin 1))
      = ∑ t : Fin (n + 1), pointSum V c ⟨t.val, lt_of_lt_of_le t.isLt h⟩
  | 0, h => by
    show HingePoints.step V c ⟨0, h⟩ (k1_pay2 (F := Ideal)) (ix2 (0 : Fin 1) (0 : Fin 1)) = _
    rw [step_apply, stored_zero, zero_add, Fin.sum_univ_one]
    rfl
  | n + 1, h => by
    show HingePoints.step V c ⟨n + 1, h⟩ (HingePoints.total V c n _) (ix2 (0 : Fin 1) (0 : Fin 1)) = _
    rw [step_apply, total_apply c n]
    exact (Fin.sum_univ_castSucc (fun t : Fin (n + 1 + 1) => pointSum V c ⟨t.val, lt_of_lt_of_le t.isLt h⟩)).symm

/-! ## The blocks are rows of the arrays the region is entered with -/

/-- Where the four input windows sit at a point: block row `t`, block column 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Block `t` as a grid point. -/
def pt (t : Fin 32) : Fin cfg1.N := ⟨t.val, by rw [show cfg1.N = 32 from N_1]; exact t.isLt⟩

theorem block_sim (c : Dev nD) (t : Fin 32) (r : Fin 16) (j : Fin 512) :
    iblk1 V c 0 (pt t) (ix2 r j) = V c main_v0 (ix2 (rowAt t r) j) := by
  obtain ⟨e0, e1, -⟩ := block_index (pt t)
  have ht : (pt t).val = t.val := rfl
  unfold iblk1
  rw [View.read_apply]
  show V c main_v0 (((cfg1.win 0).blk (pt t)).view.emb (ix2 r j)) = _
  refine congrArg (V c main_v0) ?_
  funext a
  apply Fin.ext
  match a with
  | ⟨0, _⟩ => show win1_0.index (pt t) (0 : Fin 2) * 16 + 1 * r.val = 16 * t.val + r.val; omega
  | ⟨1, _⟩ => show win1_0.index (pt t) (1 : Fin 2) * 512 + 1 * j.val = j.val; omega

theorem block_pos (c : Dev nD) (t : Fin 32) (r : Fin 16) (j : Fin 512) :
    iblk1 V c 1 (pt t) (ix2 r j) = V c main_v13 (ix2 (rowAt t r) j) := by
  obtain ⟨-, -, e0, e1, -⟩ := block_index (pt t)
  have ht : (pt t).val = t.val := rfl
  unfold iblk1
  rw [View.read_apply]
  show V c main_v13 (((cfg1.win 1).blk (pt t)).view.emb (ix2 r j)) = _
  refine congrArg (V c main_v13) ?_
  funext a
  apply Fin.ext
  match a with
  | ⟨0, _⟩ => show win1_1.index (pt t) (0 : Fin 2) * 16 + 1 * r.val = 16 * t.val + r.val; omega
  | ⟨1, _⟩ => show win1_1.index (pt t) (1 : Fin 2) * 512 + 1 * j.val = j.val; omega

theorem block_neg (c : Dev nD) (t : Fin 32) (r : Fin 16) (j : Fin 512) :
    iblk1 V c 2 (pt t) (ix2 r j) = V c main_v15 (ix2 (rowAt t r) j) := by
  obtain ⟨-, -, -, -, e0, e1, -⟩ := block_index (pt t)
  have ht : (pt t).val = t.val := rfl
  unfold iblk1
  rw [View.read_apply]
  show V c main_v15 (((cfg1.win 2).blk (pt t)).view.emb (ix2 r j)) = _
  refine congrArg (V c main_v15) ?_
  funext a
  apply Fin.ext
  match a with
  | ⟨0, _⟩ => show win1_2.index (pt t) (0 : Fin 2) * 16 + 1 * r.val = 16 * t.val + r.val; omega
  | ⟨1, _⟩ => show win1_2.index (pt t) (1 : Fin 2) * 512 + 1 * j.val = j.val; omega

theorem block_margin (c : Dev nD) (t : Fin 32) (r : Fin 16) :
    iblk1 V c 3 (pt t) (ix2 r (0 : Fin 1)) = V c main_v23 (ix2 (rowAt t r) (0 : Fin 1)) := by
  obtain ⟨-, -, -, -, -, -, e0, e1⟩ := block_index (pt t)
  have ht : (pt t).val = t.val := rfl
  unfold iblk1
  rw [View.read_apply]
  show V c main_v23 (((cfg1.win 3).blk (pt t)).view.emb (ix2 r (0 : Fin 1))) = _
  refine congrArg (V c main_v23) ?_
  funext a
  apply Fin.ext
  match a with
  | ⟨0, _⟩ => show win1_3.index (pt t) (0 : Fin 2) * 16 + 1 * r.val = 16 * t.val + r.val; omega
  | ⟨1, _⟩ => show win1_3.index (pt t) (1 : Fin 2) * 1 + 1 * 0 = 0; omega

/-- With the region entered at a similarity matrix D, the two masks p, q as floats and the margins μ as a column, what
    block `t` adds is its rows' weighted hinges, chunk by chunk. -/
theorem pointSum_eq (c : Dev nD) (t : Fin 32) (D : SBB.Idx → EReal) (p q : SBB.Idx → BitVec 1) (μ : SB.Idx → EReal)
    (hcast : SB.ShapeCasts S512x1)
    (hD : V c main_v0 = D) (hp : V c main_v13 = uitofp (F := Ideal) .f32 p) (hq : V c main_v15 = uitofp (F := Ideal) .f32 q)
    (hμ : V c main_v23 = shapeCast S512x1 μ hcast) :
    pointSum V c (pt t) = ∑ r : Fin 16,
      ((((0 + ∑ j : Fin 512, ∑ k : Fin 128, weighted D p q μ (rowAt t r) j (colAt 0 (by omega) k))
          + ∑ j : Fin 512, ∑ k : Fin 128, weighted D p q μ (rowAt t r) j (colAt 128 (by omega) k))
          + ∑ j : Fin 512, ∑ k : Fin 128, weighted D p q μ (rowAt t r) j (colAt 256 (by omega) k))
          + ∑ j : Fin 512, ∑ k : Fin 128, weighted D p q μ (rowAt t r) j (colAt 384 (by omega) k)) := by
  have hcol : ∀ i : Fin 512, shapeCast S512x1 μ hcast (ix2 i (0 : Fin 1)) = μ (ix1 i) := fun i =>
    shapeCast_apply μ hcast _ (ix1 i) (by
      rw [Shape.rowMajor_val_one, Shape.rowMajor_val_two]
      show i.val = i.val * 1 + 0
      omega)
  unfold pointSum blockSum weighted
  simp only [block_sim V c t, block_pos V c t, block_neg V c t, block_margin V c t, hD, hp, hq, hμ, hcol]
  rfl

/-- The total after the last point is the hinge sum. -/
theorem total_eq_hingeSum (c : Dev nD) (D : SBB.Idx → EReal) (p q : SBB.Idx → BitVec 1) (μ : SB.Idx → EReal)
    (hcast : SB.ShapeCasts S512x1)
    (hD : V c main_v0 = D) (hp : V c main_v13 = uitofp (F := Ideal) .f32 p) (hq : V c main_v15 = uitofp (F := Ideal) .f32 q)
    (hμ : V c main_v23 = shapeCast S512x1 μ hcast) :
    HingePoints.result V c (ix2 (0 : Fin 1) (0 : Fin 1)) = hingeSum D p q μ := by
  have h31 : 31 < cfg1.N := by rw [show cfg1.N = 32 from N_1]; decide
  show HingePoints.total V c 31 h31 (ix2 (0 : Fin 1) (0 : Fin 1)) = _
  rw [total_apply V c 31 h31, ← blocks_eq_hingeSum]
  exact Finset.sum_congr rfl fun (t : Fin 32) _ => pointSum_eq V c t D p q μ hcast hD hp hq hμ

end Cert.KernelIdeal.HingeValue

end
-- ==== Proof.GramRead.lean ====
/-
  The matrix-product kernel's payload read at an index, at the extended reals: a 512 × 512 matrix times its own
  transpose, accumulated into zero, is at (i, j) the inner product of rows i and j.
-/
import proofs.«131220_j4956392259672_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.Hinge

open Idealize.ShloMosaic Idealize.ShloMosaic.ValueIdx Cert.KernelIdeal Cert.KernelIdeal.Gen

/-- The product's dimension numbers: the left operand's columns contracted with the right operand's rows. -/
local notation "gdot" => Cert.KernelIdeal.dot_S512x512_S512x512_S512x512_1_0_0_1_n_n

/-- The left operand's row is the output's row. -/
theorem gdot_lhs_0 (y : S512x512.Idx) (q : (gdot).contr.Idx) : ((gdot).lhsIdx y q 0).val = (y 0).val := by
  unfold DotDims.lhsIdx
  rw [dif_neg (show ¬(0 : Fin S512x512.rank) ∈ (gdot).lhsBatch by decide),
    dif_pos (show (0 : Fin S512x512.rank) ∈ (gdot).lhsNonContracting by decide)]
  rfl

/-- The left operand's column is the contraction's coordinate. -/
theorem gdot_lhs_1 (y : S512x512.Idx) (q : (gdot).contr.Idx) :
    ((gdot).lhsIdx y q 1).val = (q ⟨0, by decide⟩).val :=
  (gdot).lhsIdx_val_of_single rfl y q

/-- The right operand's row is the contraction's coordinate. -/
theorem gdot_rhs_0 (y : S512x512.Idx) (q : (gdot).contr.Idx) :
    ((gdot).rhsIdx y q 0).val = (q ⟨0, by decide⟩).val :=
  (gdot).rhsIdx_val_of_single rfl y q

/-- The right operand's column is the output's column. -/
theorem gdot_rhs_1 (y : S512x512.Idx) (q : (gdot).contr.Idx) : ((gdot).rhsIdx y q 1).val = (y 1).val := by
  unfold DotDims.rhsIdx
  rw [dif_neg (show ¬(1 : Fin S512x512.rank) ∈ (gdot).rhsBatch by decide),
    dif_pos (show (1 : Fin S512x512.rank) ∈ (gdot).rhsNonContracting by decide)]
  rfl

/-- The product of a matrix with its transpose, into zero: at (i, j) the sum over d of x(i, d) · x(j, d). -/
theorem gram_apply (x : Vec Ideal Cert.KernelIdeal.S512x512 .f32) (i j : Fin 512) :
    Cert.KernelIdeal.Gen.k0_pay1 (F := Ideal) x (ix2 i j) = ∑ d : Fin 512, x (ix2 i d) * x (ix2 j d) := by
  unfold Cert.KernelIdeal.Gen.k0_pay1
  simp only [matmul]
  rw [Ideal.matmul_constant_zero_apply, ← Equiv.sum_comp (contrEquiv1 gdot 512 rfl rfl).symm]
  refine Finset.sum_congr rfl fun k _ => ?_
  have hk := contrEquiv1_symm_val gdot 512 rfl rfl k
  have el : (gdot).lhsIdx (ix2 i j) ((contrEquiv1 gdot 512 rfl rfl).symm k) = ix2 i k :=
    funext fun a => Fin.ext (by
      match a with
      | ⟨0, _⟩ => exact gdot_lhs_0 _ _
      | ⟨1, _⟩ => exact (gdot_lhs_1 _ _).trans hk)
  have er : (gdot).rhsIdx (ix2 i j) ((contrEquiv1 gdot 512 rfl rfl).symm k) = ix2 k j :=
    funext fun a => Fin.ext (by
      match a with
      | ⟨0, _⟩ => exact (gdot_rhs_0 _ _).trans hk
      | ⟨1, _⟩ => exact gdot_rhs_1 _ _)
  rw [el, er]
  refine congrArg (x (ix2 i k) * ·) ?_
  exact transpose_apply [1, 0] x transposes_S512x512_p1_0_S512x512 (ix2 k j) (ix2 j k) fun c =>
    match c with
    | ⟨0, _⟩ => rfl
    | ⟨1, _⟩ => rfl

end Cert.Hinge

end
-- ==== Proof.LibSumIdx3.lean ====
/-
  A sum over a rank-3 index set is the triple sum over its coordinates.

  General (any additive commutative monoid, any extents): the rank-3 companion of the library's rank-2
  `ValueIdx.idxEquiv2` / `ValueIdx.sum_idx2`.
-/
import Idealize.ShloMosaic.Lib.ValueIdx

namespace Cert.Lib.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.SumIdx3
-- ==== Proof.RefSide.lean ====
/-
  The reference's side of the triplet hinge sum: the similarity matrix it forms is X·Xᵀ, and the scalar it reduces to is
  the hinge sum of that matrix, the two masks and the gathered margins.

  The reference broadcasts D(i,j), D(i,k) and the margin μ(i) to a rank-3 array, forms max ((D(i,j) − D(i,k)) + μ(i), 0),
  keeps it where both masks hold and puts the zero word elsewhere, and sums every element from the zero word. Read at the
  index (i, j, k) that element is one triple's term, and the sum over the rank-3 index set is the triple sum over the
  three coordinates.
-/
import proofs.«131220_j4956392259672_2_alg».proof.Proof.Hinge
import proofs.«131220_j4956392259672_2_alg».proof.Proof.Gen.ReferenceIdeal.Read
import proofs.«131220_j4956392259672_2_alg».proof.Proof.LibSumIdx3

noncomputable section

namespace Cert.Hinge.Ref

open Cert.ReferenceIdeal Cert.ReferenceIdeal.Read Idealize.ShloMosaic Idealize.ShloMosaic.ValueIdx Cert.Hinge Cert.Lib.SumIdx3

/-! ## The similarity matrix -/

/-- Entry (i, j) of the reference's first value is the inner product of rows i and j. -/
theorem ref_sim (x0 : (⟨S512x512, .f32⟩ : BufTy).Contents (Elt Ideal)) (i j : Fin 512) :
    val_main_v0 (F := Ideal) x0 (ix2 i j) = ∑ d : Fin 512, x0 (ix2 i d) * x0 (ix2 j d) := by
  rw [val_main_v0_apply]
  refine Finset.sum_congr rfl fun d _ => ?_
  have el : lidx_main_v0 (ix2 i j) d = ix2 i d :=
    funext fun a => Fin.ext (by match a with | ⟨0, _⟩ => rfl | ⟨1, _⟩ => rfl)
  have er : ridx_main_v0 (ix2 i j) d = ix2 j d :=
    funext fun a => Fin.ext (by match a with | ⟨0, _⟩ => rfl | ⟨1, _⟩ => rfl)
  rw [el, er]

/-! ## One element of the masked hinge array -/

/-- The masked hinge array at (i, j, k) is the triple's term: the two broadcasts of D read D(i,j) and D(i,k), the
    margin's reads μ(i), the masks' read p(i,j) and q(i,k), and the zero word is the extended real 0. -/
theorem ref_term (x0 : (⟨S512x512, .f32⟩ : BufTy).Contents (Elt Ideal)) (x1 : (⟨S512, .i32⟩ : BufTy).Contents (Elt Ideal))
    (x2 : (⟨S100, .f32⟩ : BufTy).Contents (Elt Ideal)) (i j k : Fin 512) :
    val_main_v36 (F := Ideal) x0 x1 x2 (ix3 i j k)
      = triple (val_main_v0 x0) (val_main_v12 x1) (val_main_v13 x1) (val_main_v20 x1 x2) i j k := by
  have e31 : idx_main_v29 (idx_main_v31 (ix3 i j k)) = ix2 i j :=
    funext fun a => Fin.ext (by match a with | ⟨0, _⟩ => rfl | ⟨1, _⟩ => rfl)
  have e32 : idx_main_v30 (idx_main_v32 (ix3 i j k)) = ix2 i k :=
    funext fun a => Fin.ext (by match a with | ⟨0, _⟩ => rfl | ⟨1, _⟩ => rfl)
  have e23 : idx_main_v21 (idx_main_v23 (ix3 i j k)) = ix2 i j :=
    funext fun a => Fin.ext (by match a with | ⟨0, _⟩ => rfl | ⟨1, _⟩ => rfl)
  have e24 : idx_main_v22 (idx_main_v24 (ix3 i j k)) = ix2 i k :=
    funext fun a => Fin.ext (by match a with | ⟨0, _⟩ => rfl | ⟨1, _⟩ => rfl)
  have e27 : idx_main_v26 (idx_main_v27 (ix3 i j k)) = ix1 i :=
    funext fun a => Fin.ext (by match a with | ⟨0, _⟩ => rfl)
  have hz : (FloatOps.ofBits (F := Ideal) .f32 0x00000000#32) = (0 : EReal) := Ideal.ofBits_zero_f32
  rw [val_main_v36_apply, val_main_v33_apply, val_main_v31_apply, val_main_v29_apply, val_main_v32_apply,
    val_main_v30_apply, val_main_v35_apply, val_main_v28_apply, val_main_v25_apply, val_main_v23_apply,
    val_main_v21_apply, val_main_v24_apply, val_main_v22_apply, val_main_v27_apply, val_main_v26_apply,
    val_main_v34_apply, val_main_cst_apply, val_main_call0_v1_apply, val_main_call0_v0_apply, val_main_cst_2_apply,
    e31, e32, e23, e24, e27, hz]
  rfl

/-! ## The scalar -/

/-- The reference's total is the hinge sum of its similarity matrix, masks and margins. -/
theorem ref_hinge (x0 : (⟨S512x512, .f32⟩ : BufTy).Contents (Elt Ideal)) (x1 : (⟨S512, .i32⟩ : BufTy).Contents (Elt Ideal))
    (x2 : (⟨S100, .f32⟩ : BufTy).Contents (Elt Ideal)) (i : S_.Idx) :
    val_main_v37 (F := Ideal) x0 x1 x2 i
      = Cert.Hinge.hingeSum (val_main_v0 x0) (val_main_v12 x1) (val_main_v13 x1) (val_main_v20 x1 x2) := by
  have hz : (FloatOps.ofBits (F := Ideal) .f32 0x00000000#32) = (0 : EReal) := Ideal.ofBits_zero_f32
  rw [val_main_v37_apply, val_main_cst_3_apply, hz, zero_add, sum_idx3]
  unfold hingeSum
  exact Finset.sum_congr rfl fun a _ => Finset.sum_congr rfl fun b _ => Finset.sum_congr rfl fun c _ =>
    ref_term x0 x1 x2 a b c

end Cert.Hinge.Ref

end
-- ==== Proof.Bridge.lean ====
/-
  The kernel's result is the reference's result, as one function of the arguments.

  Both programs end by subtracting the same two regularizers from a scalar. The reference's scalar is the hinge sum of its
  similarity matrix X·Xᵀ, its two masks and its gathered margins; the kernel's is the second region's total, which is the
  hinge sum of the first region's product array and of the same masks and margins, computed by the same host operations of
  the same arguments. The two similarity matrices agree entry by entry: each is the inner product of two rows of X.
-/
import proofs.«131220_j4956392259672_2_alg».proof.Proof.KernelValue
import proofs.«131220_j4956392259672_2_alg».proof.Proof.GramRead
import proofs.«131220_j4956392259672_2_alg».proof.Proof.RefSide

set_option maxRecDepth 16384

noncomputable section

namespace Cert.KernelIdeal.HingeBridge

open Cert.KernelIdeal Cert.KernelIdeal.Gen Cert.Hinge
open Idealize.ShloMosaic Idealize.ShloMosaic.TcCoe Idealize.ShloMosaic.ValueIdx Idealize.SL.Sem

variable (m : (ℓ : Loc nD τ sig) → Buf (Elt Ideal) ℓ) (ρ : Dev nD → PrngReg)

/-- A 1 × 1 array read as a scalar is its one entry. -/
theorem scalar_read (X : Vec Ideal S1x1 .f32) (h : S1x1.ShapeCasts S_) (i : S_.Idx) :
    shapeCast S_ X h i = X (ix2 (0 : Fin 1) (0 : Fin 1)) :=
  shapeCast_apply X h i _ (by
    have e1 : S1x1.numel = 1 := by decide
    have e0 : S_.numel = 1 := by decide
    have h1 : (S1x1.rowMajor (ix2 (0 : Fin 1) (0 : Fin 1))).val < 1 := lt_of_lt_of_eq (S1x1.rowMajor _).isLt e1
    have h2 : (S_.rowMajor i).val < 1 := lt_of_lt_of_eq (S_.rowMajor i).isLt e0
    omega)

/-- The kernel's product array is the reference's similarity matrix: both are the rows' inner products. -/
theorem sim_agree (x : Vec Ideal S512x512 .f32) :
    (k0_pay1 (F := Ideal) x : SBB.Idx → EReal) = Cert.ReferenceIdeal.Read.val_main_v0 (F := Ideal) x := by
  funext idx
  obtain ⟨i, j, rfl⟩ : ∃ (i j : Fin 512), idx = ix2 i j := ⟨idx 0, idx 1, eq_ix2 idx⟩
  rw [gram_apply, Cert.Hinge.Ref.ref_sim]

/-- The second region's total is the reference's total. -/
theorem total_agree (c : Dev nD) (hcast : S1x1.ShapeCasts S_) :
    shapeCast S_ (HingePoints.result (V2 m ρ) c) hcast
      = Cert.ReferenceIdeal.Read.val_main_v37 (F := Ideal) (m ((c : Thread nD τ).loc main_arg0))
          (m ((c : Thread nD τ).loc main_arg1)) (m ((c : Thread nD τ).loc main_arg2)) := by
  funext i
  rw [scalar_read, Cert.Hinge.Ref.ref_hinge,
    HingeValue.total_eq_hingeSum (V2 m ρ) c (k0_pay1 (m ((c : Thread nD τ).loc main_arg0)))
      (Cert.ReferenceIdeal.Read.val_main_v12 (m ((c : Thread nD τ).loc main_arg1)))
      (Cert.ReferenceIdeal.Read.val_main_v13 (m ((c : Thread nD τ).loc main_arg1)))
      (Cert.ReferenceIdeal.Read.val_main_v20 (m ((c : Thread nD τ).loc main_arg1)) (m ((c : Thread nD τ).loc main_arg2)))
      (by decide) (HingeMasks.entry1_sim m ρ c) (HingeMasks.entry1_pos m ρ c) (HingeMasks.entry1_neg m ρ c)
      (HingeMasks.entry1_margin m ρ c (by decide)),
    sim_agree]

/-- The kernel's result is the reference's last stage of the same four arguments. -/
theorem result_agree (c : Dev nD) :
    W4 m ρ c (Proc.devRef .tc main_v31)
      = Cert.ReferenceIdeal.Read.val_main_v43 (F := Ideal) (m ((c : Thread nD τ).loc main_arg0))
          (m ((c : Thread nD τ).loc main_arg1)) (m ((c : Thread nD τ).loc main_arg2)) (m ((c : Thread nD τ).loc main_arg3)) := by
  rw [HingeTail.result_eq m ρ c (by decide), total_agree m ρ c (by decide)]
  rfl

end Cert.KernelIdeal.HingeBridge

end
-- ==== Proof.lean ====
/-
  A triplet margin hinge loss over a pairwise similarity matrix: a two-kernel program against its plain reference.

  From 512 embeddings X (512 × 512), labels, and two margin tables μ, ν of length 100 both programs compute
      Σ_{i,j,k} [label i = label j, i ≠ j] · [label i ≠ label k] · max (D(i,j) − D(i,k) + μ(label i), 0)  −  Σμ/100  −  Σν/100,
  with D = X·Xᵀ. The kernel program forms D in one kernel, the two masks (as floats) and the gathered margins on the host,
  and the triple sum in a second kernel that walks the anchors sixteen rows at a time and the negatives 128 columns at a
  time, accumulating into one number across its thirty-two grid points; the reference forms the 512³ array of masked hinges
  and sums it. At the extended reals the two agree: the masks' product as floats selects the same triples as the reference's
  conjunction (0 · x = 0 and 1 · x = x for every extended real), and the kernel's order of summation is a regrouping of a
  finite sum in a commutative monoid — no finiteness of the inputs is used for the value.

  The modules: Hinge (the sum and the kernel's vector vocabulary), ChunkRead and GramRead (that vocabulary and the product
  kernel read at an index), Regroup (the regrouping), Region0 / Stretch1 / Region1 / Tail (the arrays at each boundary of the
  kernel program's run), KernelRun (the run with its result named), KernelValue (the total is the hinge sum), RefSide (the
  reference's total is the hinge sum), Bridge (the two results are one function of the arguments).
-/
import proofs.«131220_j4956392259672_2_alg».proof.Defs
import proofs.«131220_j4956392259672_2_alg».proof.Proof.Gen.Kernel
import proofs.«131220_j4956392259672_2_alg».proof.Proof.Gen.Kernel.Skeleton
import proofs.«131220_j4956392259672_2_alg».proof.Proof.Gen.Kernel.Launch
import proofs.«131220_j4956392259672_2_alg».proof.Proof.Gen.Kernel.Points
import proofs.«131220_j4956392259672_2_alg».proof.Proof.Gen.Kernel.Frame
import proofs.«131220_j4956392259672_2_alg».proof.Proof.Gen.KernelIdeal
import proofs.«131220_j4956392259672_2_alg».proof.Proof.Gen.KernelIdeal.Skeleton
import proofs.«131220_j4956392259672_2_alg».proof.Proof.Gen.KernelIdeal.Launch
import proofs.«131220_j4956392259672_2_alg».proof.Proof.Gen.KernelIdeal.Points
import proofs.«131220_j4956392259672_2_alg».proof.Proof.Gen.KernelIdeal.Frame
import proofs.«131220_j4956392259672_2_alg».proof.Proof.Gen.ReferenceIdeal
import proofs.«131220_j4956392259672_2_alg».proof.Proof.Gen.Pre_finite_inputs
import proofs.«131220_j4956392259672_2_alg».proof.Proof.Gen.ReferenceIdeal.Run
import proofs.«131220_j4956392259672_2_alg».proof.Proof.Gen.ReferenceIdeal.Read
import proofs.«131220_j4956392259672_2_alg».proof.Proof.KernelRun
import proofs.«131220_j4956392259672_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and end with the same scalar: the kernel program's
    result buffer holds its run's last boundary contents there, the reference's its last stage, and the two are one function
    of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v31),
    Cert.KernelIdeal.HingeRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2]
  exact (Cert.KernelIdeal.HingeBridge.result_agree m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
